-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S256x2 : Shape := ⟨2, ![256, 2]⟩
abbrev S262144x2 : Shape := ⟨2, ![262144, 2]⟩
abbrev S1024x2 : Shape := ⟨2, ![1024, 2]⟩
abbrev S1024x1 : Shape := ⟨2, ![1024, 1]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S256x2 : S_.BroadcastsInDim S256x2 (![] : Fin 0 → Fin S256x2.rank)
  reducesTo_S256x2_S_d0_1 : S256x2.ReducesTo [0, 1] S_
  bcast_S_S262144x2 : S_.BroadcastsInDim S262144x2 (![] : Fin 0 → Fin S262144x2.rank)
  reducesTo_S262144x2_S_d0_1 : S262144x2.ReducesTo [0, 1] S_
  bcast_S_S1024x2 : S_.BroadcastsInDim S1024x2 (![] : Fin 0 → Fin S1024x2.rank)
  reducesTo_S1024x2_S_d0_1 : S1024x2.ReducesTo [0, 1] S_
  bcast_S_S1024x1 : S_.BroadcastsInDim S1024x1 (![] : Fin 0 → Fin S1024x1.rank)
  reducesTo_S1024x1_S_d0_1 : S1024x1.ReducesTo [0, 1] S_

variable [Facts]

def fn_part1 {F : FTy → Type} [FloatOps F] (main_arg4 : FVec F S1024x1 .f32) (main_v13 : IVec S_ 1) (main_v16 : IVec S1024x2 1) : IVec S_ 1 :=
  let main_c_5 : IVec S_ 1 := constantI S_ 1 1#1
  let main_v17 : IVec S_ 1 := (fun x v => Host.reduce IntOp.andi x v reducesTo_S1024x2_S_d0_1 h_S_) main_v16 main_c_5
  let main_v18 : IVec S_ 1 := andi main_v13 main_v17
  let main_v19 : FVec F S1024x1 .f32 := Host.absf main_arg4
  let main_cst_6 : FVec F S_ .f32 := constant S_ .f32 0x7F800000#32
  let main_v20 : FVec F S1024x1 .f32 := broadcastInDim S1024x1 ![] bcast_S_S1024x1 main_cst_6
  let main_v21 : IVec S1024x1 1 := cmpf .olt main_v19 main_v20
  let main_c_7 : IVec S_ 1 := constantI S_ 1 1#1
  let main_v22 : IVec S_ 1 := (fun x v => Host.reduce IntOp.andi x v reducesTo_S1024x1_S_d0_1 h_S_) main_v21 main_c_7
  let main_v23 : IVec S_ 1 := andi main_v18 main_v22
  main_v23

def fn {F : FTy → Type} [FloatOps F] (main_arg0 : FVec F S262144x256 .f32) (main_arg1 : FVec F S256x2 .f32) (main_arg2 : FVec F S262144x2 .f32) (main_arg3 : FVec F S1024x2 .f32) (main_arg4 : FVec F S1024x1 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S256x2 .f32 := Host.absf main_arg1
  let main_cst_0 : FVec F S_ .f32 := constant S_ .f32 0x7F800000#32
  let main_v5 : FVec F S256x2 .f32 := broadcastInDim S256x2 ![] bcast_S_S256x2 main_cst_0
  let main_v6 : IVec S256x2 1 := cmpf .olt main_v4 main_v5
  let main_c_1 : IVec S_ 1 := constantI S_ 1 1#1
  let main_v7 : IVec S_ 1 := (fun x v => Host.reduce IntOp.andi x v reducesTo_S256x2_S_d0_1 h_S_) main_v6 main_c_1
  let main_v8 : IVec S_ 1 := andi main_v3 main_v7
  let main_v9 : FVec F S262144x2 .f32 := Host.absf main_arg2
  let main_cst_2 : FVec F S_ .f32 := constant S_ .f32 0x7F800000#32
  let main_v10 : FVec F S262144x2 .f32 := broadcastInDim S262144x2 ![] bcast_S_S262144x2 main_cst_2
  let main_v11 : IVec S262144x2 1 := cmpf .olt main_v9 main_v10
  let main_c_3 : IVec S_ 1 := constantI S_ 1 1#1
  let main_v12 : IVec S_ 1 := (fun x v => Host.reduce IntOp.andi x v reducesTo_S262144x2_S_d0_1 h_S_) main_v11 main_c_3
  let main_v13 : IVec S_ 1 := andi main_v8 main_v12
  let main_v14 : FVec F S1024x2 .f32 := Host.absf main_arg3
  let main_cst_4 : FVec F S_ .f32 := constant S_ .f32 0x7F800000#32
  let main_v15 : FVec F S1024x2 .f32 := broadcastInDim S1024x2 ![] bcast_S_S1024x2 main_cst_4
  let main_v16 : IVec S1024x2 1 := cmpf .olt main_v14 main_v15
  fn_part1 (F := F) main_arg4 main_v13 main_v16
-- ==== Kernel.lean ====
abbrev S262144x256 : Shape := ⟨2, ![262144, 256]⟩
abbrev S256x2 : Shape := ⟨2, ![256, 2]⟩
abbrev S262144x2 : Shape := ⟨2, ![262144, 2]⟩
abbrev S1024x2 : Shape := ⟨2, ![1024, 2]⟩
abbrev S1024x1 : Shape := ⟨2, ![1024, 1]⟩
abbrev S2x1024 : Shape := ⟨2, ![2, 1024]⟩
abbrev S_ : Shape := ⟨0, ![]⟩
abbrev S1024 : Shape := ⟨1, ![1024]⟩
abbrev S1x1024 : Shape := ⟨2, ![1, 1024]⟩
abbrev S262144x1 : Shape := ⟨2, ![262144, 1]⟩
abbrev S2048x256 : Shape := ⟨2, ![2048, 256]⟩
abbrev S2048x2 : Shape := ⟨2, ![2048, 2]⟩
abbrev S2048x1 : Shape := ⟨2, ![2048, 1]⟩
abbrev S2048 : Shape := ⟨1, ![2048]⟩
abbrev S2048x1024 : Shape := ⟨2, ![2048, 1024]⟩

abbrev nBuf : Space → Nat
  | .hbm => 12
  | .vmem => 10
  | .smem => 0
  | _ => 0

abbrev bufTy : (tb : Table) → Fin (tcTables nBuf tb) → BufTy
  | .hbm, ⟨0, _⟩ => ⟨S262144x256, .f32⟩
  | .hbm, ⟨1, _⟩ => ⟨S256x2, .f32⟩
  | .hbm, ⟨2, _⟩ => ⟨S262144x2, .f32⟩
  | .hbm, ⟨3, _⟩ => ⟨S1024x2, .f32⟩
  | .hbm, ⟨4, _⟩ => ⟨S1024x1, .f32⟩
  | .hbm, ⟨5, _⟩ => ⟨S2x1024, .f32⟩
  | .hbm, ⟨6, _⟩ => ⟨S1024x2, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S1x1024, .f32⟩
  | .hbm, ⟨11, _⟩ => ⟨S262144x1, .f32⟩
  | .local _ .vmem, ⟨0, _⟩ => ⟨S2048x256, .f32⟩
  | .local _ .vmem, ⟨1, _⟩ => ⟨S2048x256, .f32⟩
  | .local _ .vmem, ⟨2, _⟩ => ⟨S256x2, .f32⟩
  | .local _ .vmem, ⟨3, _⟩ => ⟨S2048x2, .f32⟩
  | .local _ .vmem, ⟨4, _⟩ => ⟨S2048x2, .f32⟩
  | .local _ .vmem, ⟨5, _⟩ => ⟨S2x1024, .f32⟩
  | .local _ .vmem, ⟨6, _⟩ => ⟨S1x1024, .f32⟩
  | .local _ .vmem, ⟨7, _⟩ => ⟨S1024x1, .f32⟩
  | .local _ .vmem, ⟨8, _⟩ => ⟨S2048x1, .f32⟩
  | .local _ .vmem, ⟨9, _⟩ => ⟨S2048x1, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S1024x2_S2x1024_1_0 : S1024x2.Transposes [1, 0] S2x1024
  reducesTo_S1024x2_S1024_d1 : S1024x2.ReducesTo [1] S1024
  h_S_ : 0 < S_.numel
  bcast_S1024_S1024x1_0 : S1024.BroadcastsInDim S1024x1 (![0] : Fin 1 → Fin S1024x1.rank)
  transposes_S1024x1_S1x1024_1_0 : S1024x1.Transposes [1, 0] S1x1024
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S256x2_S256x2_0_0 : ∀ a, (![0, 0] : Fin 2 → Nat) a + S256x2.size a ≤ S256x2.size a
  h_S256x2 : 0 < S256x2.numel
  inb_S2048x2_S2048x2_0_0 : ∀ a, (![0, 0] : Fin 2 → Nat) a + S2048x2.size a ≤ S2048x2.size a
  h_S2048x2 : 0 < S2048x2.numel
  inb_S2x1024_S2x1024_0_0 : ∀ a, (![0, 0] : Fin 2 → Nat) a + S2x1024.size a ≤ S2x1024.size a
  h_S2x1024 : 0 < S2x1024.numel
  shapeCasts_S2x1024_S2x1024 : S2x1024.ShapeCasts S2x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1_S1024x1_0_0 : ∀ a, (![0, 0] : Fin 2 → Nat) a + S1024x1.size a ≤ S1024x1.size a
  h_S1024x1 : 0 < S1024x1.numel
  reduces_S2048x2_S2048 : S2048x2.Reduces [1] S2048
  shapeCasts_S2048_S2048x1 : S2048.ShapeCasts S2048x1
  broadcasts_S2048x1_S2048x1024 : S2048x1.Broadcasts S2048x1024
  broadcasts_S1x1024_S2048x1024 : S1x1024.Broadcasts S2048x1024
  inb_S2048x1_S2048x1_0_0 : ∀ a, (![0, 0] : Fin 2 → Nat) a + S2048x1.size a ≤ S2048x1.size a
  h_S2048x1 : 0 < S2048x1.numel
  dot_S2048x256_S256x2_S2048x2_1_0_0_1_n_n_wf : DotDims.WF S2048x256 S256x2 S2048x2 [1] [0] [0] [1] [] []
  dot_S2048x2_S2x1024_S2048x1024_1_0_0_1_n_n_wf : DotDims.WF S2048x2 S2x1024 S2048x1024 [1] [0] [0] [1] [] []
  dot_S2048x1024_S1024x1_S2048x1_1_0_0_1_n_n_wf : DotDims.WF S2048x1024 S1024x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S262144x256.size a
  hwx0_0 : ∀ i : grid0.Coords, EltTy.bits .f32 = 32 ∨ (Rect.block (s := S262144x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x2.size a ≤ S256x2.size a
  hwx0_1 : ∀ i : grid0.Coords, EltTy.bits .f32 = 32 ∨ (Rect.block (s := S256x2) S256x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2.size a ≤ S262144x2.size a
  hwx0_2 : ∀ i : grid0.Coords, EltTy.bits .f32 = 32 ∨ (Rect.block (s := S262144x2) S2048x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x1024.size a ≤ S2x1024.size a
  hwx0_3 : ∀ i : grid0.Coords, EltTy.bits .f32 = 32 ∨ (Rect.block (s := S2x1024) S2x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S1024x1.size a
  hwx0_5 : ∀ i : grid0.Coords, EltTy.bits .f32 = 32 ∨ (Rect.block (s := S1024x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x1.size a ≤ S262144x1.size a
  hwx0_6 : ∀ i : grid0.Coords, EltTy.bits .f32 = 32 ∨ (Rect.block (s := S262144x1) S2048x1.size (cc0_transform_6 i) (hinb0_6 i)).WholeWords (EltTy.packing .f32)

variable [Facts₀]

def dot_S2048x256_S256x2_S2048x2_1_0_0_1_n_n : DotDims S2048x256 S256x2 S2048x2 where
  lhsContracting := [1]
  rhsContracting := [0]
  lhsNonContracting := [0]
  rhsNonContracting := [1]
  lhsBatch := []
  rhsBatch := []
  wf := dot_S2048x256_S256x2_S2048x2_1_0_0_1_n_n_wf
def dot_S2048x2_S2x1024_S2048x1024_1_0_0_1_n_n : DotDims S2048x2 S2x1024 S2048x1024 where
  lhsContracting := [1]
  rhsContracting := [0]
  lhsNonContracting := [0]
  rhsNonContracting := [1]
  lhsBatch := []
  rhsBatch := []
  wf := dot_S2048x2_S2x1024_S2048x1024_1_0_0_1_n_n_wf
def dot_S2048x1024_S1024x1_S2048x1_1_0_0_1_n_n : DotDims S2048x1024 S1024x1 S2048x1 where
  lhsContracting := [1]
  rhsContracting := [0]
  lhsNonContracting := [0]
  rhsNonContracting := [1]
  lhsBatch := []
  rhsBatch := []
  wf := dot_S2048x1024_S1024x1_S2048x1_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1024x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S2048x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S262144x256 : Shape := ⟨2, ![262144, 256]⟩
abbrev S256x2 : Shape := ⟨2, ![256, 2]⟩
abbrev S262144x2 : Shape := ⟨2, ![262144, 2]⟩
abbrev S1024x2 : Shape := ⟨2, ![1024, 2]⟩
abbrev S1024x1 : Shape := ⟨2, ![1024, 1]⟩
abbrev S_ : Shape := ⟨0, ![]⟩
abbrev S262144 : Shape := ⟨1, ![262144]⟩
abbrev S262144x1 : Shape := ⟨2, ![262144, 1]⟩
abbrev S1024 : Shape := ⟨1, ![1024]⟩
abbrev S1x1024 : Shape := ⟨2, ![1, 1024]⟩
abbrev S2x1024 : Shape := ⟨2, ![2, 1024]⟩
abbrev S262144x1024 : Shape := ⟨2, ![262144, 1024]⟩

abbrev nBuf : Space → Nat
  | .hbm => 30
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S256x2, .f32⟩
  | .hbm, ⟨2, _⟩ => ⟨S262144x2, .f32⟩
  | .hbm, ⟨3, _⟩ => ⟨S1024x2, .f32⟩
  | .hbm, ⟨4, _⟩ => ⟨S1024x1, .f32⟩
  | .hbm, ⟨5, _⟩ => ⟨S262144x2, .f32⟩
  | .hbm, ⟨6, _⟩ => ⟨S262144x2, .f32⟩
  | .hbm, ⟨7, _⟩ => ⟨S262144x2, .f32⟩
  | .hbm, ⟨8, _⟩ => ⟨S_, .f32⟩
  | .hbm, ⟨9, _⟩ => ⟨S262144, .f32⟩
  | .hbm, ⟨10, _⟩ => ⟨S262144x1, .f32⟩
  | .hbm, ⟨11, _⟩ => ⟨S1024x2, .f32⟩
  | .hbm, ⟨12, _⟩ => ⟨S_, .f32⟩
  | .hbm, ⟨13, _⟩ => ⟨S1024, .f32⟩
  | .hbm, ⟨14, _⟩ => ⟨S1x1024, .f32⟩
  | .hbm, ⟨15, _⟩ => ⟨S2x1024, .f32⟩
  | .hbm, ⟨16, _⟩ => ⟨S262144x1024, .f32⟩
  | .hbm, ⟨17, _⟩ => ⟨S_, .f32⟩
  | .hbm, ⟨18, _⟩ => ⟨S262144x1024, .f32⟩
  | .hbm, ⟨19, _⟩ => ⟨S262144x1024, .f32⟩
  | .hbm, ⟨20, _⟩ => ⟨S262144x1024, .f32⟩
  | .hbm, ⟨21, _⟩ => ⟨S262144x1024, .f32⟩
  | .hbm, ⟨22, _⟩ => ⟨S262144x1024, .f32⟩
  | .hbm, ⟨23, _⟩ => ⟨S262144x1024, .f32⟩
  | .hbm, ⟨24, _⟩ => ⟨S262144x1024, .f32⟩
  | .hbm, ⟨25, _⟩ => ⟨S_, .f32⟩
  | .hbm, ⟨26, _⟩ => ⟨S262144x1024, .f32⟩
  | .hbm, ⟨27, _⟩ => ⟨S262144x1024, .f32⟩
  | .hbm, ⟨28, _⟩ => ⟨S262144x1024, .f32⟩
  | .hbm, ⟨29, _⟩ => ⟨S262144x1, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  reducesTo_S262144x2_S262144_d1 : S262144x2.ReducesTo [1] S262144
  h_S_ : 0 < S_.numel
  bcast_S262144_S262144x1_0 : S262144.BroadcastsInDim S262144x1 (![0] : Fin 1 → Fin S262144x1.rank)
  reducesTo_S1024x2_S1024_d1 : S1024x2.ReducesTo [1] S1024
  bcast_S1024_S1x1024_1 : S1024.BroadcastsInDim S1x1024 (![1] : Fin 1 → Fin S1x1024.rank)
  transposes_S1024x2_S2x1024_1_0 : S1024x2.Transposes [1, 0] S2x1024
  bcast_S_S262144x1024 : S_.BroadcastsInDim S262144x1024 (![] : Fin 0 → Fin S262144x1024.rank)
  bcast_S262144x1_S262144x1024_0_1 : S262144x1.BroadcastsInDim S262144x1024 (![0, 1] : Fin 2 → Fin S262144x1024.rank)
  bcast_S1x1024_S262144x1024_0_1 : S1x1024.BroadcastsInDim S262144x1024 (![0, 1] : Fin 2 → Fin S262144x1024.rank)
  dot_S262144x256_S256x2_S262144x2_1_0_0_1_n_n_wf : DotDims.WF S262144x256 S256x2 S262144x2 [1] [0] [0] [1] [] []
  dot_S262144x2_S2x1024_S262144x1024_1_0_0_1_n_n_wf : DotDims.WF S262144x2 S2x1024 S262144x1024 [1] [0] [0] [1] [] []
  dot_S262144x1024_S1024x1_S262144x1_1_0_0_1_n_n_wf : DotDims.WF S262144x1024 S1024x1 S262144x1 [1] [0] [0] [1] [] []

variable [Facts₀]

def dot_S262144x256_S256x2_S262144x2_1_0_0_1_n_n : DotDims S262144x256 S256x2 S262144x2 where
  lhsContracting := [1]
  rhsContracting := [0]
  lhsNonContracting := [0]
  rhsNonContracting := [1]
  lhsBatch := []
  rhsBatch := []
  wf := dot_S262144x256_S256x2_S262144x2_1_0_0_1_n_n_wf
def dot_S262144x2_S2x1024_S262144x1024_1_0_0_1_n_n : DotDims S262144x2 S2x1024 S262144x1024 where
  lhsContracting := [1]
  rhsContracting := [0]
  lhsNonContracting := [0]
  rhsNonContracting := [1]
  lhsBatch := []
  rhsBatch := []
  wf := dot_S262144x2_S2x1024_S262144x1024_1_0_0_1_n_n_wf
def dot_S262144x1024_S1024x1_S262144x1_1_0_0_1_n_n : DotDims S262144x1024 S1024x1 S262144x1 where
  lhsContracting := [1]
  rhsContracting := [0]
  lhsNonContracting := [0]
  rhsNonContracting := [1]
  lhsBatch := []
  rhsBatch := []
  wf := dot_S262144x1024_S1024x1_S262144x1_1_0_0_1_n_n_wf

class Facts : Prop extends Facts₀ where

variable [Facts]
-- ==== Proof.LibColumns.lean ====
/-
  Layout operations read at an index given by coordinates, for arrays that keep a reduced axis as a unit axis
  (a row sum kept as a column): a vector cast to a one-column matrix, a one-column matrix broadcast along its
  rows — both the general reading of a shape cast (equal row-major positions) and of a broadcast (the operand's
  unit axes read at 0) specialised to indices written with `ix1` / `ix2` — and their composition with a sum
  over the second axis on the extended reals: the row sums of a matrix, kept as a column and broadcast back to a
  matrix, read at `(p, c)` as the sum of row `p`.
-/
import Idealize.ShloMosaic.Lib.ValueLayout
import Idealize.ShloMosaic.PureOps.Ideal.Laws

namespace Cert.Lib.Columns

open Idealize.ShloMosaic Idealize.ShloMosaic.ValueIdx

variable {α : Type}

/-- An `[a]` array cast to the column `[a, 1]` reads, at `(i, u)`, the operand at `i`, whatever the unit
    coordinate `u`: the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals: the sums of the rows of an `[a, n]` matrix (a reduction over the second axis from the
    additive neutral), kept as the column `[a, 1]` and broadcast to `[a, b]`, read at `(p, c)` the sum of row `p`. -/
theorem rowSum_column_broadcast_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ (multiReduction .add [1] ⟨1, ![a]⟩ src acc h hφ hacc) hc) hb (ix2 p c)
      = ∑ k : Fin n, src (ix2 p k) :=
  (broadcastTo_a1_ab_apply _ hb p c).trans
    ((shapeCast_a_a1_apply _ hc p 0).trans
      ((Ideal.multiReduction_add_single src acc h hφ hacc (ix1 p)).trans
        (Finset.sum_congr rfl fun k _ => congrArg src (funext fun ax => Fin.ext (by
          match ax with
          | ⟨0, _⟩ => rfl
          | ⟨1, _⟩ => rfl)))))

end Cert.Lib.Columns
-- ==== Proof.LibMatmul.lean ====
/-
  A plain matrix product on the extended reals, read at an index given by coordinates: the product of an
  `[M, K]` matrix with a `[K, N]` matrix (contracting the left operand's second axis with the right operand's
  first, no batch axis), accumulated into the zero matrix, has at `(p, q)` the entry `∑ k, lhs (p, k) * rhs (k, q)`.
  The contraction index of such a product is its one coordinate, so the sum over contraction indices is re-indexed
  to a sum over `Fin K`; the operand indices at `(p, q)` and `k` are `(p, k)` and `(k, q)`.
-/
import Idealize.ShloMosaic.Lib.ValueIdx
import Idealize.ShloMosaic.PureOps.Ideal.Laws

namespace Cert.Lib.Matmul

open Idealize.ShloMosaic Idealize.ShloMosaic.ValueIdx

/-- The left operand's index of a plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl (ix2 p q) _).trans hk)

/-- The right operand's index of a plain product at output `(p, q)` and contraction coordinate `k` is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl (ix2 p q) _).trans hk
    | ⟨1, _⟩ => rfl)

/-- A plain `[M, K] × [K, N]` product into the zero accumulator, on the extended reals, read at `(p, q)`. The
    dimension record may be any record equal to the plain one (`hD`). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    matmul D prec lhs rhs (constant ⟨2, ![M, N]⟩ .f32 0x00000000#32) (ix2 p q)
      = ∑ k : Fin K, lhs (ix2 p k) * rhs (ix2 k q) := by
  subst hD
  refine (Ideal.matmul_constant_zero_apply (DotDims.plain M K N) prec lhs rhs (ix2 p q)).trans ?_
  rw [← Equiv.sum_comp (contrEquiv1 (DotDims.plain M K N) K rfl rfl).symm]
  refine Finset.sum_congr rfl fun k _ => ?_
  rw [plain_lhsIdx, plain_rhsIdx]

end Cert.Lib.Matmul
-- ==== Proof.RowSpec.lean ====
/-
  The function both programs compute, stated once on the extended reals.

  For a pixel row `p`: the deformed position `d j = pix (p, j) - ∑ k, K (p, k) * β (k, j)` (two coordinates); for a
  centre `c` the squared distance in expanded form `(∑ j, d j * d j) + csq c - 2 * ∑ j, d j * cen (c, j)`, with
  `csq c = 0 + ∑ j, cen (c, j) * cen (c, j)`; the radial weight is the exponential of that quantity times `-1`; the
  row's result is the sum over the centres of weight times `α c`.

  One program multiplies the expanded distance by the constant `-1`, the other negates it and divides by the
  constant `1`: on every extended real, infinite ones included, both are the negation (`scale_eq`).
-/
import Idealize.ShloMosaic.Lib.ValueIdx
import Idealize.ShloMosaic.PureOps.Ideal.Laws

noncomputable section

namespace Cert.Rbf

open Idealize.ShloMosaic Idealize.ShloMosaic.ValueIdx

/-- Coordinate `j` of a row's deformed position: the pixel's coordinate minus the row of `K` times column `j` of `β`. -/
def deformed (Krow : Fin 256 → EReal) (β : Fin 256 → Fin 2 → EReal) (pix : Fin 2 → EReal) (j : Fin 2) : EReal :=
  pix j - ∑ k : Fin 256, Krow k * β k j

/-- One row's result from its deformed position `d`: over the centres `c`, the exponential of the expanded squared
    distance scaled by `s`, weighted by `α c`. The constants `two` and `s` are kept as parameters: each program's
    literal for them is the same word on both sides and is never evaluated. -/
def rowVal (two s : EReal) (d : Fin 2 → EReal) (cen : Fin 1024 → Fin 2 → EReal) (csq : Fin 1024 → EReal)
    (α : Fin 1024 → EReal) : EReal :=
  ∑ c : Fin 1024, Ideal.exp ((((∑ j : Fin 2, d j * d j) + csq c) - two * ∑ j : Fin 2, d j * cen c j) * s) * α c

/-- Row `p` of the result, from the five argument arrays. -/
def rowOf (K : FVec Ideal ⟨2, ![262144, 256]⟩ .f32) (β : FVec Ideal ⟨2, ![256, 2]⟩ .f32)
    (pix : FVec Ideal ⟨2, ![262144, 2]⟩ .f32) (cen : FVec Ideal ⟨2, ![1024, 2]⟩ .f32)
    (α : FVec Ideal ⟨2, ![1024, 1]⟩ .f32) (p : Fin 262144) : EReal :=
  rowVal (Ideal.ofBits .f32 0x40000000#32) (Ideal.ofBits .f32 0xBF800000#32)
    (deformed (fun k => K (ix2 p k)) (fun k j => β (ix2 k j)) (fun j => pix (ix2 p j)))
    (fun c j => cen (ix2 c j))
    (fun c => Ideal.ofBits .f32 0x00000000#32 + ∑ j : Fin 2, cen (ix2 c j) * cen (ix2 c j))
    (fun c => α (ix2 c (0 : Fin 1)))

/-- The whole result array `[262144, 1]` as one function of the argument arrays. -/
def result (K : FVec Ideal ⟨2, ![262144, 256]⟩ .f32) (β : FVec Ideal ⟨2, ![256, 2]⟩ .f32)
    (pix : FVec Ideal ⟨2, ![262144, 2]⟩ .f32) (cen : FVec Ideal ⟨2, ![1024, 2]⟩ .f32)
    (α : FVec Ideal ⟨2, ![1024, 1]⟩ .f32) : FVec Ideal ⟨2, ![262144, 1]⟩ .f32 :=
  fun i => rowOf K β pix cen α (i 0)

theorem result_ix2 (K : FVec Ideal ⟨2, ![262144, 256]⟩ .f32) (β : FVec Ideal ⟨2, ![256, 2]⟩ .f32)
    (pix : FVec Ideal ⟨2, ![262144, 2]⟩ .f32) (cen : FVec Ideal ⟨2, ![1024, 2]⟩ .f32)
    (α : FVec Ideal ⟨2, ![1024, 1]⟩ .f32) (p : Fin 262144) (u : Fin 1) :
    result K β pix cen α (ix2 p u) = rowOf K β pix cen α p := rfl

/-- Multiplying by the constant `-1` is negating and dividing by the constant `1`, on every extended real: both are
    the negation (the quotient by the real `1` is the product with `1 / 1`). -/
theorem scale_eq (x : EReal) :
    x * Ideal.ofBits .f32 0xBF800000#32 = Ideal.div (-x) (Ideal.ofBits .f32 0x3F800000#32) := by
  have hneg : Ideal.ofBits .f32 0xBF800000#32 = -1 := IdealRules.sign_bit.ideal_negOnePat .f32
  have hone : Ideal.ofBits .f32 0x3F800000#32 = ((1 : ℝ) : EReal) := IdealRules.sign_bit.ideal_onePat .f32
  rw [hneg, hone, Ideal.div_coe one_ne_zero, mul_neg_one]
  norm_num

end Cert.Rbf

end
-- ==== Proof.Payload.lean ====
/-
  The kernel body's arithmetic, read at one row of a block.

  The body takes a `[2048, 256]` block of `K`, the whole `β`, a `[2048, 2]` block of pixels, the transposed
  centres `[2, 1024]`, their squared norms as a row `[1, 1024]`, and `α`. Its stored value is a chain of three matrix
  products with pointwise arithmetic between them. Named here are the intermediate blocks — the deformed positions,
  the row sums of their squares kept as a column and broadcast, the squared norms broadcast down the rows, the
  cross products, the radial weights — each read at `(r, c)` by one lemma; together they say that entry `(r, 0)` of the
  stored block is `Cert.Rbf.rowVal` of row `r` of the inputs.
-/
import proofs.«102021_j50027779064417_1_alg».proof.Proof.Gen.KernelIdeal.Skeleton
import proofs.«102021_j50027779064417_1_alg».proof.Proof.LibColumns
import proofs.«102021_j50027779064417_1_alg».proof.Proof.LibMatmul
import proofs.«102021_j50027779064417_1_alg».proof.Proof.RowSpec
import Idealize.ShloMosaic.Lib.ValueLayout

noncomputable section

namespace Cert.Rbf.Pay

open Idealize.ShloMosaic Idealize.ShloMosaic.ValueIdx
open Cert.KernelIdeal Cert.KernelIdeal.Gen

/-- The block of deformed positions: pixels minus the block of `K` times `β`. -/
def dblk (x0 : FVec Ideal S2048x256 .f32) (x1 : FVec Ideal S256x2 .f32) (x2 : FVec Ideal S2048x2 .f32) :
    FVec Ideal S2048x2 .f32 :=
  subf x2 (matmul dot_S2048x256_S256x2_S2048x2_1_0_0_1_n_n none (truncf .bf16 x0 bitsLt_bf16_f32)
    (truncf .bf16 x1 bitsLt_bf16_f32) (constant S2048x2 .f32 0x00000000#32))

theorem dblk_apply (x0 : FVec Ideal S2048x256 .f32) (x1 : FVec Ideal S256x2 .f32) (x2 : FVec Ideal S2048x2 .f32)
    (r : Fin 2048) (j : Fin 2) :
    dblk x0 x1 x2 (ix2 r j)
      = deformed (fun k => x0 (ix2 r k)) (fun k j => x1 (ix2 k j)) (fun j => x2 (ix2 r j)) j :=
  congrArg (x2 (ix2 r j) - ·) (Cert.Lib.Matmul.matmul_zero_apply _ rfl none _ _ r j)

/-- The squared lengths of the deformed positions: row sums kept as a column, broadcast along the centres. -/
def psqB (dd : FVec Ideal S2048x2 .f32) : FVec Ideal S2048x1024 .f32 :=
  broadcastTo S2048x1024 (shapeCast S2048x1 (multiReduction .add [1] S2048 (mulf dd dd) 0x00000000#32
    reduces_S2048x2_S2048 (.inl rfl) rfl) shapeCasts_S2048_S2048x1) broadcasts_S2048x1_S2048x1024

theorem psqB_apply (dd : FVec Ideal S2048x2 .f32) (r : Fin 2048) (c : Fin 1024) :
    psqB dd (ix2 r c) = ∑ j : Fin 2, dd (ix2 r j) * dd (ix2 r j) :=
  Cert.Lib.Columns.rowSum_column_broadcast_apply (mulf dd dd) _ _ _ _ _ _ r c

/-- The centres' squared norms, a row broadcast down the block's rows. -/
def csqB (x4 : FVec Ideal S1x1024 .f32) : FVec Ideal S2048x1024 .f32 :=
  broadcastTo S2048x1024 (shapeCast S1x1024 x4 shapeCasts_S1x1024_S1x1024) broadcasts_S1x1024_S2048x1024

theorem csqB_apply (x4 : FVec Ideal S1x1024 .f32) (r : Fin 2048) (c : Fin 1024) :
    csqB x4 (ix2 r c) = x4 (ix2 (0 : Fin 1) c) :=
  (broadcastTo_1b_ab_apply _ _ r c).trans (congrFun (shapeCast_self x4 _) _)

/-- The cross products: deformed positions times the transposed centres. -/
def crossB (dd : FVec Ideal S2048x2 .f32) (x3 : FVec Ideal S2x1024 .f32) : FVec Ideal S2048x1024 .f32 :=
  matmul dot_S2048x2_S2x1024_S2048x1024_1_0_0_1_n_n none (truncf .bf16 dd bitsLt_bf16_f32)
    (truncf .bf16 (shapeCast S2x1024 x3 shapeCasts_S2x1024_S2x1024) bitsLt_bf16_f32)
    (constant S2048x1024 .f32 0x00000000#32)

theorem crossB_apply (dd : FVec Ideal S2048x2 .f32) (x3 : FVec Ideal S2x1024 .f32) (r : Fin 2048) (c : Fin 1024) :
    crossB dd x3 (ix2 r c) = ∑ j : Fin 2, dd (ix2 r j) * x3 (ix2 j c) :=
  (Cert.Lib.Matmul.matmul_zero_apply _ rfl none _ _ r c).trans
    (Finset.sum_congr rfl fun j _ => congrArg (dd (ix2 r j) * ·) (congrFun (shapeCast_self x3 _) _))

/-- The radial weights: the exponential of the expanded squared distance times the constant `-1`. -/
def weightB (dd : FVec Ideal S2048x2 .f32) (x3 : FVec Ideal S2x1024 .f32) (x4 : FVec Ideal S1x1024 .f32) :
    FVec Ideal S2048x1024 .f32 :=
  exp (mulf (subf (addf (psqB dd) (csqB x4))
    (mulf (broadcast S2048x1024 (Scalar.ofBits .f32 0x40000000#32)) (crossB dd x3)))
    (broadcast S2048x1024 (Scalar.ofBits .f32 0xBF800000#32)))

theorem weightB_apply (dd : FVec Ideal S2048x2 .f32) (x3 : FVec Ideal S2x1024 .f32) (x4 : FVec Ideal S1x1024 .f32)
    (r : Fin 2048) (c : Fin 1024) :
    weightB dd x3 x4 (ix2 r c)
      = Ideal.exp ((((∑ j : Fin 2, dd (ix2 r j) * dd (ix2 r j)) + x4 (ix2 (0 : Fin 1) c))
          - Ideal.ofBits .f32 0x40000000#32 * ∑ j : Fin 2, dd (ix2 r j) * x3 (ix2 j c))
          * Ideal.ofBits .f32 0xBF800000#32) := by
  show Ideal.exp (((psqB dd (ix2 r c) + csqB x4 (ix2 r c))
      - Ideal.ofBits .f32 0x40000000#32 * crossB dd x3 (ix2 r c)) * Ideal.ofBits .f32 0xBF800000#32) = _
  rw [psqB_apply, csqB_apply, crossB_apply]

/-- The stored value is the weights times `α`, over the blocks named above. -/
theorem pay_eq (x0 : Vec Ideal S2048x256 .f32) (x1 : Vec Ideal S256x2 .f32) (x2 : Vec Ideal S2048x2 .f32)
    (x3 : Vec Ideal S2x1024 .f32) (x4 : Vec Ideal S1x1024 .f32) (x5 : Vec Ideal S1024x1 .f32) :
    k0_pay1 (F := Ideal) x0 x1 x2 x3 x4 x5
      = matmul dot_S2048x1024_S1024x1_S2048x1_1_0_0_1_n_n none
          (truncf .bf16 (weightB (dblk x0 x1 x2) x3 x4) bitsLt_bf16_f32) (truncf .bf16 x5 bitsLt_bf16_f32)
          (constant S2048x1 .f32 0x00000000#32) := rfl

/-- Entry `(r, 0)` of the stored block is the row function of row `r` of the input blocks. -/
theorem pay_apply (x0 : Vec Ideal S2048x256 .f32) (x1 : Vec Ideal S256x2 .f32) (x2 : Vec Ideal S2048x2 .f32)
    (x3 : Vec Ideal S2x1024 .f32) (x4 : Vec Ideal S1x1024 .f32) (x5 : Vec Ideal S1024x1 .f32)
    (r : Fin 2048) (u : Fin 1) :
    k0_pay1 (F := Ideal) x0 x1 x2 x3 x4 x5 (ix2 r u)
      = rowVal (Ideal.ofBits .f32 0x40000000#32) (Ideal.ofBits .f32 0xBF800000#32)
          (deformed (fun k => x0 (ix2 r k)) (fun k j => x1 (ix2 k j)) (fun j => x2 (ix2 r j)))
          (fun c j => x3 (ix2 j c)) (fun c => x4 (ix2 (0 : Fin 1) c)) (fun c => x5 (ix2 c (0 : Fin 1))) := by
  obtain rfl : u = 0 := Subsingleton.elim _ _
  have hd : (fun j => dblk x0 x1 x2 (ix2 r j))
      = deformed (fun k => x0 (ix2 r k)) (fun k j => x1 (ix2 k j)) (fun j => x2 (ix2 r j)) :=
    funext fun j => dblk_apply x0 x1 x2 r j
  rw [pay_eq, ← hd]
  refine (Cert.Lib.Matmul.matmul_zero_apply _ rfl none _ _ r 0).trans ?_
  unfold rowVal
  refine Finset.sum_congr rfl fun c _ => ?_
  exact congrArg (· * x5 (ix2 c (0 : Fin 1))) (weightB_apply (dblk x0 x1 x2) x3 x4 r c)

end Cert.Rbf.Pay

end
-- ==== Proof.HostPrefix.lean ====
/-
  The two arrays the host computes before the kernel is launched, read at an index.

  The transposed centres: entry `(j, c)` is the centres' entry `(c, j)`. The squared norms: the row sums of the
  centres' squares from the constant `0`, kept as a column `[1024, 1]` and transposed to a row `[1, 1024]`; entry
  `(0, c)` is `0 + ∑ j, cen (c, j) * cen (c, j)`.
-/
import proofs.«102021_j50027779064417_1_alg».proof.Proof.Gen.KernelIdeal.Frame
import Idealize.ShloMosaic.Lib.ValueLayout
import Idealize.ShloMosaic.Lib.StableHlo.Run
import Idealize.ShloMosaic.PureOps.Ideal.Laws

noncomputable section

namespace Cert.Rbf.HostPrefix

open Idealize.ShloMosaic Idealize.ShloMosaic.TcCoe Idealize.ShloMosaic.ValueIdx Idealize.SL.Sem
open Cert.KernelIdeal Cert.KernelIdeal.Gen

/-- The centres transposed, as the host computes them. -/
def cenT (cen : FVec Ideal S1024x2 .f32) : FVec Ideal S2x1024 .f32 :=
  transpose S2x1024 [1, 0] cen transposes_S1024x2_S2x1024_1_0

theorem cenT_apply (cen : FVec Ideal S1024x2 .f32) (j : Fin 2) (c : Fin 1024) :
    cenT cen (ix2 j c) = cen (ix2 c j) :=
  transpose_ix2_apply cen _ j c

/-- The centres' squared norms as a row, as the host computes them. -/
def csqRow (cen : FVec Ideal S1024x2 .f32) : FVec Ideal S1x1024 .f32 :=
  transpose S1x1024 [1, 0]
    (broadcastInDim S1024x1 ![0] bcast_S1024_S1024x1_0
      (Host.reduceAdd (F := Ideal) (mulf cen cen) (constant (F := Ideal) S_ .f32 0x00000000#32)
        reducesTo_S1024x2_S1024_d1 h_S_))
    transposes_S1024x1_S1x1024_1_0

theorem csqRow_apply (cen : FVec Ideal S1024x2 .f32) (u : Fin 1) (c : Fin 1024) :
    csqRow cen (ix2 u c) = Ideal.ofBits .f32 0x00000000#32 + ∑ j : Fin 2, cen (ix2 c j) * cen (ix2 c j) := by
  unfold csqRow
  refine (transpose_ix2_apply _ _ u c).trans ?_
  refine (broadcastInDim_apply _ bcast_S1024_S1024x1_0 _ (ix2 c u) (ix1 c) (fun a => match a with
    | ⟨0, _⟩ => by show c.val = if (1024 : Nat) = 1 then 0 else c.val; rw [if_neg (by decide)])).trans ?_
  simp only [Host.reduceAdd, Ideal.hostReduceAdd_def]
  rw [Ideal.hostReduceAdd_single reducesTo_S1024x2_S1024_d1 (by decide)]
  refine congrArg (Ideal.ofBits .f32 0x00000000#32 + ·) (Finset.sum_congr rfl fun k _ => ?_)
  show (mulf cen cen) _ = (mulf cen cen) (ix2 c k)
  exact congrArg (mulf cen cen) (funext fun a => Fin.ext (by match a with | ⟨0, _⟩ => rfl | ⟨1, _⟩ => rfl))

variable (m : (ℓ : Loc nD τ sig) → Buf (Elt Ideal) ℓ)

/-- What the region finds in the transposed-centres buffer. -/
theorem V_main_v0 (c : Dev nD) :
    (V m c main_v0 : S2x1024.Idx → EReal) = cenT (m ((c : Thread nD τ).loc main_arg3)) := by
  dsimp only [Gen.V, Gen.hostOps0]; after_results; rfl

/-- What the region finds in the squared-norms buffer. -/
theorem V_main_v4 (c : Dev nD) :
    (V m c main_v4 : S1x1024.Idx → EReal) = csqRow (m ((c : Thread nD τ).loc main_arg3)) := by
  dsimp only [Gen.V, Gen.hostOps0]; after_results; rfl

end Cert.Rbf.HostPrefix

end
-- ==== Proof.KernelValue.lean ====
/-
  From the blocks the kernel writes to the whole result array.

  The grid has 128 points; point `t` reads rows `2048 t … 2048 t + 2047` of `K` and of the pixels, the whole of `β`,
  of the transposed centres, of the squared norms and of `α`, and writes rows `2048 t … 2048 t + 2047` of the result.
  Each input block is read here as rows of the argument arrays (for the two host-computed arrays through
  `Cert.Rbf.HostPrefix`); with the body's arithmetic at one row (`Cert.Rbf.Pay.pay_apply`) this says that point `t`
  writes block `t` of `Cert.Rbf.result` of the arguments. Every row lies in the block of the point `row / 2048`, so the
  array ends holding `Cert.Rbf.result`.
-/
import proofs.«102021_j50027779064417_1_alg».proof.Proof.Gen.KernelIdeal.Value
import proofs.«102021_j50027779064417_1_alg».proof.Proof.Payload
import proofs.«102021_j50027779064417_1_alg».proof.Proof.HostPrefix
import proofs.«102021_j50027779064417_1_alg».proof.Proof.RowSpec
import Idealize.ShloMosaic.Lib.Pipeline.Value

noncomputable section

namespace Cert.Rbf.Kernel

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value

variable (m : (ℓ : Loc nD τ sig) → Buf (Elt Ideal) ℓ) (ρ : Dev nD → PrngReg)

theorem hz : (![0, 0] : Fin 2 → Nat) = fun _ => 0 := funext fun a => by fin_cases a <;> rfl

/-- The five argument arrays as core `c` holds them at launch. -/
abbrev aK (c : Dev nD) : FVec Ideal S262144x256 .f32 := m ((c : Thread nD τ).loc main_arg0)
abbrev aB (c : Dev nD) : FVec Ideal S256x2 .f32 := m ((c : Thread nD τ).loc main_arg1)
abbrev aP (c : Dev nD) : FVec Ideal S262144x2 .f32 := m ((c : Thread nD τ).loc main_arg2)
abbrev aC (c : Dev nD) : FVec Ideal S1024x2 .f32 := m ((c : Thread nD τ).loc main_arg3)
abbrev aA (c : Dev nD) : FVec Ideal S1024x1 .f32 := m ((c : Thread nD τ).loc main_arg4)

/-- The result function of those arrays. -/
abbrev res (c : Dev nD) : FVec Ideal S262144x1 .f32 :=
  result (aK m c) (aB m c) (aP m c) (aC m c) (aA m c)

/-- The block indices over the grid: the three tiled windows move with the point along the rows, the four resident
    windows stay at block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Each input block as rows of the arrays -/

/-- Row `r` of point `t`'s block of `K` is row `2048 t + r` of `K`. -/
theorem blk0_apply (c : Dev nD) (t : Fin cfg0.N) (r : Fin 2048) (k : Fin 256) (p : Fin 262144)
    (hp : p.val = t.val * 2048 + r.val) :
    (iblk m c 0 t : Vec Ideal S2048x256 .f32) (ix2 r k)
      = aK m c (ix2 p k) := by
  obtain ⟨e0, e1, -⟩ := idx_facts t
  unfold iblk
  rw [View.read_apply]
  show V m c main_arg0 (((cfg0.win 0).blk t).view.emb (ix2 r k)) = _
  rw [V_main_arg0]
  refine congrArg _ (funext fun a => Fin.ext ?_)
  match a with
  | ⟨0, _⟩ => show win0_0.index t (0 : Fin 2) * 2048 + 1 * r.val = p.val; rw [e0, hp]; omega
  | ⟨1, _⟩ => show win0_0.index t (1 : Fin 2) * 256 + 1 * k.val = k.val; rw [e1]; omega

/-- The block of `β` is `β`. -/
theorem blk1_apply (c : Dev nD) (t : Fin cfg0.N) (k : Fin 256) (j : Fin 2) :
    (iblk m c 1 t : Vec Ideal S256x2 .f32) (ix2 k j)
      = aB m c (ix2 k j) := by
  obtain ⟨-, -, e0, e1, -⟩ := idx_facts t
  unfold iblk
  rw [View.read_apply]
  show V m c main_arg1 (((cfg0.win 1).blk t).view.emb (ix2 k j)) = _
  rw [V_main_arg1]
  refine congrArg _ (funext fun a => Fin.ext ?_)
  match a with
  | ⟨0, _⟩ => show win0_1.index t (0 : Fin 2) * 256 + 1 * k.val = k.val; rw [e0]; omega
  | ⟨1, _⟩ => show win0_1.index t (1 : Fin 2) * 2 + 1 * j.val = j.val; rw [e1]; omega

/-- Row `r` of point `t`'s block of pixels is row `2048 t + r` of the pixels. -/
theorem blk2_apply (c : Dev nD) (t : Fin cfg0.N) (r : Fin 2048) (j : Fin 2) (p : Fin 262144)
    (hp : p.val = t.val * 2048 + r.val) :
    (iblk m c 2 t : Vec Ideal S2048x2 .f32) (ix2 r j)
      = aP m c (ix2 p j) := by
  obtain ⟨-, -, -, -, e0, e1, -⟩ := idx_facts t
  unfold iblk
  rw [View.read_apply]
  show V m c main_arg2 (((cfg0.win 2).blk t).view.emb (ix2 r j)) = _
  rw [V_main_arg2]
  refine congrArg _ (funext fun a => Fin.ext ?_)
  match a with
  | ⟨0, _⟩ => show win0_2.index t (0 : Fin 2) * 2048 + 1 * r.val = p.val; rw [e0, hp]; omega
  | ⟨1, _⟩ => show win0_2.index t (1 : Fin 2) * 2 + 1 * j.val = j.val; rw [e1]; omega

/-- The block of transposed centres at `(j, q)` is the centres' entry `(q, j)`. -/
theorem blk3_apply (c : Dev nD) (t : Fin cfg0.N) (j : Fin 2) (q : Fin 1024) :
    (iblk m c 3 t : Vec Ideal S2x1024 .f32) (ix2 j q)
      = aC m c (ix2 q j) := by
  obtain ⟨-, -, -, -, -, -, e0, e1, -⟩ := idx_facts t
  unfold iblk
  rw [View.read_apply]
  show (V m c main_v0 : S2x1024.Idx → EReal) (((cfg0.win 3).blk t).view.emb (ix2 j q)) = _
  rw [HostPrefix.V_main_v0]
  refine (congrArg (HostPrefix.cenT (aC m c)) (funext fun a => Fin.ext ?_)).trans (HostPrefix.cenT_apply (aC m c) j q)
  match a with
  | ⟨0, _⟩ => show win0_3.index t (0 : Fin 2) * 2 + 1 * j.val = j.val; rw [e0]; omega
  | ⟨1, _⟩ => show win0_3.index t (1 : Fin 2) * 1024 + 1 * q.val = q.val; rw [e1]; omega

/-- The block of squared norms at `(0, q)` is centre `q`'s squared norm, summed from the constant `0`. -/
theorem blk4_apply (c : Dev nD) (t : Fin cfg0.N) (q : Fin 1024) :
    (iblk m c 4 t : Vec Ideal S1x1024 .f32) (ix2 (0 : Fin 1) q)
      = Ideal.ofBits .f32 0x00000000#32 + ∑ j : Fin 2, aC m c (ix2 q j) * aC m c (ix2 q j) := by
  obtain ⟨-, -, -, -, -, -, -, -, e0, e1, -⟩ := idx_facts t
  unfold iblk
  rw [View.read_apply]
  show (V m c main_v4 : S1x1024.Idx → EReal) (((cfg0.win 4).blk t).view.emb (ix2 (0 : Fin 1) q)) = _
  rw [HostPrefix.V_main_v4]
  refine (congrArg (HostPrefix.csqRow (aC m c)) (funext fun a => Fin.ext ?_)).trans
    (HostPrefix.csqRow_apply (aC m c) (0 : Fin 1) q)
  match a with
  | ⟨0, _⟩ => show win0_4.index t (0 : Fin 2) * 1 + 1 * 0 = 0; rw [e0]
  | ⟨1, _⟩ => show win0_4.index t (1 : Fin 2) * 1024 + 1 * q.val = q.val; rw [e1]; omega

/-- The block of `α` is `α`. -/
theorem blk5_apply (c : Dev nD) (t : Fin cfg0.N) (q : Fin 1024) :
    (iblk m c 5 t : Vec Ideal S1024x1 .f32) (ix2 q (0 : Fin 1))
      = aA m c (ix2 q (0 : Fin 1)) := by
  obtain ⟨-, -, -, -, -, -, -, -, -, -, e0, e1, -⟩ := idx_facts t
  unfold iblk
  rw [View.read_apply]
  show V m c main_arg4 (((cfg0.win 5).blk t).view.emb (ix2 q (0 : Fin 1))) = _
  rw [V_main_arg4]
  refine congrArg _ (funext fun a => Fin.ext ?_)
  match a with
  | ⟨0, _⟩ => show win0_5.index t (0 : Fin 2) * 1024 + 1 * q.val = q.val; rw [e0]; omega
  | ⟨1, _⟩ => show win0_5.index t (1 : Fin 2) * 1 + 1 * 0 = 0; rw [e1]

/-! ## What a point writes back -/

/-- Row `r` of what point `t` stores is the row function of row `2048 t + r` of the arguments. -/
theorem stored_row (c : Dev nD) (t : Fin cfg0.N) (r : Fin 2048) (u : Fin 1) (p : Fin 262144)
    (hp : p.val = t.val * 2048 + r.val) :
    k0_pay1 (F := Ideal) (iblk m c 0 t) (iblk m c 1 t) (iblk m c 2 t) (iblk m c 3 t) (iblk m c 4 t) (iblk m c 5 t)
        (ix2 r u)
      = rowOf (aK m c) (aB m c) (aP m c) (aC m c) (aA m c) p := by
  refine (Pay.pay_apply _ _ _ _ _ _ r u).trans ?_
  unfold rowOf
  simp only [blk0_apply m c t r _ p hp, blk1_apply m c t, blk2_apply m c t r _ p hp, blk3_apply m c t,
    blk4_apply m c t, blk5_apply m c t]

/-- Point `t` writes block `t` of the result function of the arguments. -/
theorem flushed_eq (c : Dev nD) (t : Fin cfg0.N) :
    (dats m 0 c).flushed 6 t = ((cfg0.win 6).blk t).view.read (Elt Ideal) (res m c) := by
  rw [Value.flushed6]
  unfold out0_6
  rw [View.canon_unit_zero hz]
  simp only [View.ld_unit_zero (S := S2048x256) hz, View.ld_unit_zero (S := S256x2) hz,
    View.ld_unit_zero (S := S2048x2) hz, View.ld_unit_zero (S := S2x1024) hz, View.ld_unit_zero (S := S1x1024) hz,
    View.ld_unit_zero (S := S1024x1) hz]
  obtain ⟨-, -, -, -, -, -, -, -, -, -, -, -, e0, e1⟩ := idx_facts t
  funext y
  obtain ⟨r, u, rfl⟩ : ∃ (r : Fin 2048) (u : Fin 1), y = ix2 r u := ⟨y 0, y 1, eq_ix2 y⟩
  have hr : r.val < 2048 := r.isLt
  have ht : t.val < 128 := Nat.lt_of_lt_of_eq t.isLt N_0
  show k0_pay1 (F := Ideal) (iblk m c 0 t) (iblk m c 1 t) (iblk m c 2 t) (iblk m c 3 t) (iblk m c 4 t)
      (iblk m c 5 t) (ix2 r u) = res m c (((cfg0.win 6).blk t).view.emb (ix2 r u))
  rw [stored_row m c t r u ⟨t.val * 2048 + r.val, by omega⟩ rfl]
  show rowOf (aK m c) (aB m c) (aP m c) (aC m c) (aA m c) _
      = rowOf (aK m c) (aB m c) (aP m c) (aC m c) (aA m c) ((((cfg0.win 6).blk t).view.emb (ix2 r u)) 0)
  refine congrArg (rowOf (aK m c) (aB m c) (aP m c) (aC m c) (aA m c)) (Fin.ext ?_)
  show t.val * 2048 + r.val = win0_6.index t (0 : Fin 2) * 2048 + 1 * r.val
  rw [e0]; omega

/-! ## The blocks cover the array -/

/-- A row is in point `t`'s block iff each coordinate is in the block's range on its axis. -/
theorem mem_blk (t : Fin cfg0.N) (i : S262144x1.Idx) :
    i ∈ ((cfg0.win 6).blk t).view.set ↔ ∀ a : Fin 2, win0_6.index t a * S2048x1.size a ≤ (i a).val
      ∧ (i a).val < win0_6.index t a * S2048x1.size a + S2048x1.size a := by
  show i ∈ ((View.whole main_v5).slice (win0_6.rect t)).set ↔ _
  rw [View.set_slice_whole, Rect.mem_set_unit]
  exact Iff.rfl

/-- Row `i` lies in the block of the point `i / 2048`. -/
theorem cover (i : S262144x1.Idx) :
    ∃ t : Fin cfg0.N, (cfg0.win 6).flush t = true ∧ i ∈ ((cfg0.win 6).blk t).view.set := by
  have hi0 : (i 0).val < 262144 := (i 0).isLt
  have hi1 : (i 1).val < 1 := (i 1).isLt
  have hN : cfg0.N = 128 := N_0
  have hq : (i 0).val / 2048 < cfg0.N := by rw [hN]; omega
  obtain ⟨-, -, -, -, -, -, -, -, -, -, -, -, e0, e1⟩ := idx_facts ⟨(i 0).val / 2048, hq⟩
  refine ⟨⟨(i 0).val / 2048, hq⟩, flush0_6 _, ?_⟩
  rw [mem_blk]
  intro a
  match a with
  | ⟨0, _⟩ =>
    show win0_6.index ⟨(i 0).val / 2048, hq⟩ (0 : Fin 2) * 2048 ≤ (i 0).val
      ∧ (i 0).val < win0_6.index ⟨(i 0).val / 2048, hq⟩ (0 : Fin 2) * 2048 + 2048
    rw [e0]
    show (i 0).val / 2048 * 2048 ≤ (i 0).val ∧ (i 0).val < (i 0).val / 2048 * 2048 + 2048
    omega
  | ⟨1, _⟩ =>
    show win0_6.index ⟨(i 0).val / 2048, hq⟩ (1 : Fin 2) * 1 ≤ (i 1).val
      ∧ (i 1).val < win0_6.index ⟨(i 0).val / 2048, hq⟩ (1 : Fin 2) * 1 + 1
    rw [e1]
    omega

/-! ## The array after the run, and the run -/

/-- The result array ends holding the result function of the arguments. -/
theorem final (c : Dev nD) : (dats m 0 c).arrAt 6 cfg0.N = res m c :=
  (dats m 0 c).arrAt_eq_of_cover 6 (res m c) (fun t _ => flushed_eq m c t) cover

/-- Every weakly fair execution of the kernel's program ends with the result array at the result function of the
    arguments and the arguments unchanged. -/
theorem run : θ_run defs (onTc (τ := τ) (main (F := Ideal))) ⟨m, fun _ => 0, ρ⟩ fun r => ∀ c : Dev nD,
      r.2.mem ((c : Thread nD τ).loc main_v5) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.Rbf.Kernel

end
-- ==== Proof.RefValue.lean ====
/-
  The reference program's result is `Cert.Rbf.result` of its arguments.

  The reference's operations are read one at a time at an index `(p, c)` (pixel row, centre): the deformed positions,
  the row sums of their squares (from the constant `0`), the centres' squared norms (likewise), the cross products,
  and the radial weight, which the reference forms by negating the expanded squared distance and dividing by the
  constant `1`. The last operation sums weight times `α` over the centres. The row function multiplies the expanded
  distance by `-1` instead: the two are joined by `Cert.Rbf.scale_eq`, and the reference's leading `0 +` in the row
  sum of squares is dropped (`0` is the zero of the extended reals).
-/
import proofs.«102021_j50027779064417_1_alg».proof.Proof.Gen.ReferenceIdeal.Read
import proofs.«102021_j50027779064417_1_alg».proof.Proof.RowSpec

noncomputable section

namespace Cert.Rbf.Ref

open Idealize.ShloMosaic Idealize.ShloMosaic.ValueIdx
open Cert.ReferenceIdeal Cert.ReferenceIdeal.Gen Cert.ReferenceIdeal.Read

variable (x0 : FVec Ideal S262144x256 .f32) (x1 : FVec Ideal S256x2 .f32) (x2 : FVec Ideal S262144x2 .f32)
  (x3 : FVec Ideal S1024x2 .f32) (x4 : FVec Ideal S1024x1 .f32)

/-- The deformed position of pixel row `p`. -/
def dRow (p : Fin 262144) : Fin 2 → EReal :=
  deformed (fun k => x0 (ix2 p k)) (fun k j => x1 (ix2 k j)) (fun j => x2 (ix2 p j))

theorem v1_apply (p : Fin 262144) (j : Fin 2) :
    val_main_v1 (F := Ideal) x0 x1 x2 (ix2 p j) = dRow x0 x1 x2 p j := by
  rw [val_main_v1_apply, val_main_v0_apply]
  unfold dRow deformed
  refine congrArg (x2 (ix2 p j) - ·) (Finset.sum_congr rfl fun k _ => ?_)
  rw [show lidx_main_v0 (ix2 p j) k = ix2 p k from
        funext fun a => by match a with | ⟨0, _⟩ => rfl | ⟨1, _⟩ => rfl,
      show ridx_main_v0 (ix2 p j) k = ix2 k j from
        funext fun a => by match a with | ⟨0, _⟩ => rfl | ⟨1, _⟩ => rfl]

/-- The row sums of squared deformed positions, broadcast: at `(p, c)` the sum of row `p`, from the constant `0`. -/
theorem v12_apply (p : Fin 262144) (c : Fin 1024) :
    val_main_v12 (F := Ideal) x0 x1 x2 (ix2 p c)
      = Ideal.ofBits .f32 0x00000000#32 + ∑ j : Fin 2, dRow x0 x1 x2 p j * dRow x0 x1 x2 p j := by
  rw [val_main_v12_apply, val_main_v4_apply, val_main_v3_apply]
  refine congrArg (Ideal.ofBits .f32 0x00000000#32 + ·) (Finset.sum_congr rfl fun k _ => ?_)
  rw [show idx_main_v3 (idx_main_v4 (idx_main_v12 (ix2 p c))) k = ix2 p k from
        funext fun a => by match a with | ⟨0, _⟩ => rfl | ⟨1, _⟩ => rfl,
      val_main_v2_apply, v1_apply]
  rfl

/-- The centres' squared norms, broadcast: at `(p, c)` the sum of centre `c`'s squares, from the constant `0`. -/
theorem v13_apply (p : Fin 262144) (c : Fin 1024) :
    val_main_v13 (F := Ideal) x3 (ix2 p c)
      = Ideal.ofBits .f32 0x00000000#32 + ∑ j : Fin 2, x3 (ix2 c j) * x3 (ix2 c j) := by
  rw [val_main_v13_apply, val_main_v7_apply, val_main_v6_apply]
  refine congrArg (Ideal.ofBits .f32 0x00000000#32 + ·) (Finset.sum_congr rfl fun k _ => ?_)
  rw [show idx_main_v6 (idx_main_v7 (idx_main_v13 (ix2 p c))) k = ix2 c k from
        funext fun a => by match a with | ⟨0, _⟩ => rfl | ⟨1, _⟩ => rfl]
  rfl

/-- The cross products at `(p, c)`. -/
theorem v9_apply (p : Fin 262144) (c : Fin 1024) :
    val_main_v9 (F := Ideal) x0 x1 x2 x3 (ix2 p c) = ∑ j : Fin 2, dRow x0 x1 x2 p j * x3 (ix2 c j) := by
  rw [val_main_v9_apply]
  refine Finset.sum_congr rfl fun k _ => ?_
  rw [show lidx_main_v9 (ix2 p c) k = ix2 p k from
        funext fun a => by match a with | ⟨0, _⟩ => rfl | ⟨1, _⟩ => rfl,
      v1_apply, val_main_v8_apply,
      show idx_main_v8 (ridx_main_v9 (ix2 p c) k) = ix2 c k from
        funext fun a => by match a with | ⟨0, _⟩ => rfl | ⟨1, _⟩ => rfl]

/-- The radial weight at `(p, c)`, as the reference forms it: negate, divide by the constant `1`, exponentiate. -/
theorem v19_apply (p : Fin 262144) (c : Fin 1024) :
    val_main_v19 (F := Ideal) x0 x1 x2 x3 (ix2 p c)
      = Ideal.exp (Ideal.div
          (-(((Ideal.ofBits .f32 0x00000000#32 + ∑ j : Fin 2, dRow x0 x1 x2 p j * dRow x0 x1 x2 p j)
              + (Ideal.ofBits .f32 0x00000000#32 + ∑ j : Fin 2, x3 (ix2 c j) * x3 (ix2 c j)))
            - Ideal.ofBits .f32 0x40000000#32 * ∑ j : Fin 2, dRow x0 x1 x2 p j * x3 (ix2 c j)))
          (Ideal.ofBits .f32 0x3F800000#32)) := by
  rw [val_main_v19_apply, val_main_v18_apply, val_main_v16_apply, val_main_v15_apply, val_main_v14_apply,
    val_main_v11_apply, val_main_v17_apply, val_main_v10_apply, val_main_cst_2_apply, val_main_cst_1_apply,
    v12_apply, v13_apply, v9_apply]
  rfl

/-- The reference's last stage is the result function of the arguments. -/
theorem ref_eq : val_main_v20 (F := Ideal) x0 x1 x2 x3 x4 = result x0 x1 x2 x3 x4 := by
  funext i
  obtain ⟨p, u, rfl⟩ : ∃ (p : Fin 262144) (u : Fin 1), i = ix2 p u := ⟨i 0, i 1, eq_ix2 i⟩
  obtain rfl : u = 0 := Subsingleton.elim _ _
  rw [val_main_v20_apply, result_ix2]
  unfold rowOf rowVal
  refine Finset.sum_congr rfl fun c _ => ?_
  rw [show lidx_main_v20 (ix2 p (0 : Fin 1)) c = ix2 p c from
        funext fun a => by match a with | ⟨0, _⟩ => rfl | ⟨1, _⟩ => rfl,
      show ridx_main_v20 (ix2 p (0 : Fin 1)) c = ix2 c (0 : Fin 1) from
        funext fun a => by match a with | ⟨0, _⟩ => rfl | ⟨1, _⟩ => rfl,
      v19_apply, scale_eq, Ideal.ofBits_zero_f32, zero_add]
  rfl

end Cert.Rbf.Ref

end
-- ==== Proof.lean ====
/-
  The certificate of a radial-basis-function kernel against its reference.

  Both programs compute, for each of 262144 pixels `p`, the deformed position `d = pix p - K p · β` (two
  coordinates), the expanded squared distance `|d|² + |cen c|² - 2 d · cen c` to each of 1024 centres `c`, the weight
  `exp` of minus that distance, and the sum over the centres of weight times `α c`. The kernel does this for 2048 pixels
  at a time, from the centres transposed and their squared norms, both computed on the host before the launch; it
  multiplies the distance by the constant `-1`, where the reference negates it and divides by the constant `1`.
  On the extended reals these are one function (`Cert.Rbf.result`): matrix products, row sums and broadcasts
  read at an index are the same finite sums on both sides, changes of float format are the identity, and
  `x * (-1) = (-x) / 1` holds for every extended real, so the inputs' finiteness is never used.

  The three frames are the generated frame runs; the idealization rewrote nothing, so `preserves` is trivial.
-/
import proofs.«102021_j50027779064417_1_alg».proof.Defs
import proofs.«102021_j50027779064417_1_alg».proof.Proof.Gen.Kernel
import proofs.«102021_j50027779064417_1_alg».proof.Proof.Gen.Kernel.Frame
import proofs.«102021_j50027779064417_1_alg».proof.Proof.Gen.KernelIdeal
import proofs.«102021_j50027779064417_1_alg».proof.Proof.Gen.KernelIdeal.Frame
import proofs.«102021_j50027779064417_1_alg».proof.Proof.Gen.KernelIdeal.Value
import proofs.«102021_j50027779064417_1_alg».proof.Proof.Gen.ReferenceIdeal
import proofs.«102021_j50027779064417_1_alg».proof.Proof.Gen.ReferenceIdeal.Run
import proofs.«102021_j50027779064417_1_alg».proof.Proof.Gen.ReferenceIdeal.Read
import proofs.«102021_j50027779064417_1_alg».proof.Proof.Gen.Pre_finite_inputs
import proofs.«102021_j50027779064417_1_alg».proof.Proof.KernelValue
import proofs.«102021_j50027779064417_1_alg».proof.Proof.RefValue

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the five arguments both programs end with the result array at
    `Cert.Rbf.result` of the arguments: the kernel block by block (`Cert.Rbf.Kernel.run`), the reference through its
    operations read one at a time (`Cert.Rbf.Ref.ref_eq`). -/
theorem algebraic : Cert.algebraic_KernelIdeal_ReferenceIdeal := by
  intro m ρ m' ρ' _ hagree
  refine ⟨fun c => Cert.Rbf.Kernel.res m c, Cert.Rbf.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v20_eq _ _ _ _ _).trans (Cert.Rbf.Ref.ref_eq _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
